-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S256x64 : Shape := ⟨2, ![256, 64]⟩
abbrev S128x64 : Shape := ⟨2, ![128, 64]⟩
abbrev S256x1x64 : Shape := ⟨3, ![256, 1, 64]⟩
abbrev S1x128x64 : Shape := ⟨3, ![1, 128, 64]⟩
abbrev S256x128x64 : Shape := ⟨3, ![256, 128, 64]⟩
abbrev S64 : Shape := ⟨1, ![64]⟩
abbrev S1x64 : Shape := ⟨2, ![1, 64]⟩
abbrev S2048x1x64 : Shape := ⟨3, ![2048, 1, 64]⟩

abbrev nBuf : Space → Nat
  | .hbm => 4
  | .vmem => 8
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x1x64, .f32⟩
  | .local _ .vmem, ⟨0, _⟩ => ⟨S256x64, .f32⟩
  | .local _ .vmem, ⟨1, _⟩ => ⟨S256x64, .f32⟩
  | .local _ .vmem, ⟨2, _⟩ => ⟨S128x64, .f32⟩
  | .local _ .vmem, ⟨3, _⟩ => ⟨S128x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S128x64_S128x64_0_0 : ∀ a, (![0, 0] : Fin 2 → Nat) a + S128x64.size a ≤ S128x64.size a
  h_S128x64 : 0 < S128x64.numel
  shapeCasts_S256x64_S256x1x64 : S256x64.ShapeCasts S256x1x64
  shapeCasts_S128x64_S1x128x64 : S128x64.ShapeCasts S1x128x64
  broadcasts_S256x1x64_S256x128x64 : S256x1x64.Broadcasts S256x128x64
  broadcasts_S1x128x64_S256x128x64 : S1x128x64.Broadcasts S256x128x64
  reduces_S256x128x64_S256x64 : S256x128x64.Reduces [1] S256x64
  reduces_S128x64_S64 : S128x64.Reduces [0] S64
  shapeCasts_S64_S1x64 : S64.ShapeCasts S1x64
  broadcasts_S1x64_S256x64 : S1x64.Broadcasts S256x64
  bcast_S2048x64_S2048x1x64_0_2 : S2048x64.BroadcastsInDim S2048x1x64 (![0, 2] : Fin 2 → Fin S2048x1x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x64 : Shape := ⟨2, ![2048, 64]⟩
abbrev S2048x1x1x64 : Shape := ⟨4, ![2048, 1, 1, 64]⟩
abbrev S1x1x2048x64 : Shape := ⟨4, ![1, 1, 2048, 64]⟩
abbrev S2048x1x2048x64 : Shape := ⟨4, ![2048, 1, 2048, 64]⟩
abbrev S_ : Shape := ⟨0, ![]⟩
abbrev S2048x1x64 : Shape := ⟨3, ![2048, 1, 64]⟩

abbrev nBuf : Space → Nat
  | .hbm => 18
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x1x1x64, .f32⟩
  | .hbm, ⟨3, _⟩ => ⟨S1x1x2048x64, .f32⟩
  | .hbm, ⟨4, _⟩ => ⟨S2048x1x2048x64, .f32⟩
  | .hbm, ⟨5, _⟩ => ⟨S2048x1x2048x64, .f32⟩
  | .hbm, ⟨6, _⟩ => ⟨S2048x1x2048x64, .f32⟩
  | .hbm, ⟨7, _⟩ => ⟨S_, .f32⟩
  | .hbm, ⟨8, _⟩ => ⟨S2048x1x64, .f32⟩
  | .hbm, ⟨9, _⟩ => ⟨S2048x1x2048x64, .f32⟩
  | .hbm, ⟨10, _⟩ => ⟨S2048x1x2048x64, .f32⟩
  | .hbm, ⟨11, _⟩ => ⟨S2048x1x2048x64, .f32⟩
  | .hbm, ⟨12, _⟩ => ⟨S_, .f32⟩
  | .hbm, ⟨13, _⟩ => ⟨S2048x1x64, .f32⟩
  | .hbm, ⟨14, _⟩ => ⟨S_, .f32⟩
  | .hbm, ⟨15, _⟩ => ⟨S2048x1x64, .f32⟩
  | .hbm, ⟨16, _⟩ => ⟨S2048x1x64, .f32⟩
  | .hbm, ⟨17, _⟩ => ⟨S2048x1x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S2048x64_S2048x1x1x64_0_3 : S2048x64.BroadcastsInDim S2048x1x1x64 (![0, 3] : Fin 2 → Fin S2048x1x1x64.rank)
  bcast_S2048x64_S1x1x2048x64_2_3 : S2048x64.BroadcastsInDim S1x1x2048x64 (![2, 3] : Fin 2 → Fin S1x1x2048x64.rank)
  bcast_S2048x1x1x64_S2048x1x2048x64_0_1_2_3 : S2048x1x1x64.BroadcastsInDim S2048x1x2048x64 (![0, 1, 2, 3] : Fin 4 → Fin S2048x1x2048x64.rank)
  bcast_S1x1x2048x64_S2048x1x2048x64_0_1_2_3 : S1x1x2048x64.BroadcastsInDim S2048x1x2048x64 (![0, 1, 2, 3] : Fin 4 → Fin S2048x1x2048x64.rank)
  reducesTo_S2048x1x2048x64_S2048x1x64_d2 : S2048x1x2048x64.ReducesTo [2] S2048x1x64
  h_S_ : 0 < S_.numel
  bcast_S_S2048x1x64 : S_.BroadcastsInDim S2048x1x64 (![] : Fin 0 → Fin S2048x1x64.rank)

variable [Facts₀]

class Facts : Prop extends Facts₀ where

variable [Facts]
-- ==== Proof.TileSums.lean ====
/-
  The mathematics of the Ruzicka similarity, free of any program.

  A table of 2048 rows is cut into 16 tiles of 128 rows.  For one entry `x` of the first table and one column
  `y` of the second, the similarity's numerator is `∑ₖ min x (y k)` and its denominator `∑ₖ max x (y k)`.
  A tiled evaluation adds, tile after tile, `∑ⱼ min x (y (128 m + j))` to the numerator and
  `(128 · x + ∑ⱼ y (128 m + j)) − ∑ⱼ min x (y (128 m + j))` to the denominator.

  * The numerator: summing tile by tile is summing over all rows (`sum_tiles`), in any commutative monoid — on the
    extended reals no finiteness is needed.
  * The denominator: `min a b + max a b = a + b`, so on the REALS one tile's contribution is `∑ⱼ max x (y (128 m + j))`
    (`tile_max_real`).  The step subtracts, so it holds on the extended reals only where every entry is finite
    (`den_tiles`).

  The float literals the two programs spell are read here too, once: `128.0` and `+∞`.
-/
import Idealize.ShloMosaic.PureOps.Ideal
import Idealize.ShloMosaic.Lib.ValueIdx

noncomputable section

namespace Ruzicka

open Finset Idealize.ShloMosaic

/-! ## The literals -/

/-- The pattern of `128.0` denotes the real `128`. -/
theorem ofBits_128 : Ideal.ofBits .f32 0x43000000#32 = ((128 : ℝ) : EReal) := by
  simp [Ideal.ofBits, Ideal.ieee, -EReal.coe_mul]; norm_num

/-- The pattern of `+∞` denotes `⊤`. -/
theorem ofBits_inf : Ideal.ofBits .f32 0x7F800000#32 = (⊤ : EReal) := by
  simp [Ideal.ofBits, Ideal.ieee]

/-! ## Rows of a tile -/

/-- Row `j` of tile `m`: row `128 m + j` of the table (reduced mod 2048, so that it is a row for every `m`). -/
def tileRow (m : ℕ) (j : Fin 128) : Fin 2048 := ⟨(128 * m + j.val) % 2048, Nat.mod_lt _ (by norm_num)⟩

theorem tileRow_val (m : ℕ) (hm : m < 16) (j : Fin 128) : (tileRow m j).val = 128 * m + j.val := by
  have := j.isLt
  show (128 * m + j.val) % 2048 = _
  omega

/-- Row `r` of row block `i` of the first table, cut into blocks of 256 rows: row `256 i + r` (reduced mod 2048, so that
    it is a row for every `i`). -/
def blockRow (i : ℕ) (r : Fin 256) : Fin 2048 := ⟨(256 * i + r.val) % 2048, Nat.mod_lt _ (by norm_num)⟩

theorem blockRow_val (i : ℕ) (hi : i < 8) (r : Fin 256) : (blockRow i r).val = 256 * i + r.val := by
  have := r.isLt
  show (256 * i + r.val) % 2048 = _
  omega

/-- Summing tile by tile, sixteen tiles of 128 rows, is summing over the 2048 rows. -/
theorem sum_tiles {M : Type*} [AddCommMonoid M] (f : Fin 2048 → M) :
    ∑ m ∈ range 16, ∑ j : Fin 128, f (tileRow m j) = ∑ k : Fin 2048, f k := by
  rw [Finset.sum_range fun m => ∑ j : Fin 128, f (tileRow m j)]
  rw [← Fintype.sum_prod_type' (f := fun (m : Fin 16) (j : Fin 128) => f (tileRow m.val j))]
  refine Fintype.sum_equiv (finProdFinEquiv (m := 16) (n := 128)) _ f fun x => congrArg f (Fin.ext ?_)
  rw [tileRow_val _ x.1.isLt, finProdFinEquiv_apply_val]
  omega

/-! ## The real numbers inside the extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_min (a b : ℝ) : ((min a b : ℝ) : EReal) = min (a : EReal) (b : EReal) :=
  EReal.coe_strictMono.monotone.map_min

theorem coe_max (a b : ℝ) : ((max a b : ℝ) : EReal) = max (a : EReal) (b : EReal) :=
  EReal.coe_strictMono.monotone.map_max

/-- One tile on the reals: since `min a b + max a b = a + b`, the maxima sum to
    `128 · a + ∑ b − ∑ min a b`. -/
theorem tile_max_real (a : ℝ) (b : Fin 128 → ℝ) :
    ∑ j, max a (b j) = (128 * a + ∑ j, b j) - ∑ j, min a (b j) := by
  have h : ∀ j, max a (b j) = a + b j - min a (b j) := fun j => by
    have := min_add_max a (b j); linarith
  simp only [h, Finset.sum_sub_distrib, Finset.sum_add_distrib, Finset.sum_const, Finset.card_univ,
    Fintype.card_fin, nsmul_eq_mul]
  norm_num

/-- The denominator: on FINITE entries the tiled contributions `(128 · x + ∑ⱼ y) − ∑ⱼ min x y` sum to
    `∑ₖ max x (y k)`. -/
theorem den_tiles (c : EReal) (hc : c = ((128 : ℝ) : EReal)) (x : EReal) (y : Fin 2048 → EReal)
    (hx : ∃ a : ℝ, x = a) (hy : ∀ k, ∃ b : ℝ, y k = b) :
    ∑ m ∈ range 16, ((c * x + ∑ j : Fin 128, y (tileRow m j)) - ∑ j : Fin 128, min x (y (tileRow m j)))
      = ∑ k : Fin 2048, max x (y k) := by
  subst hc
  obtain ⟨a, rfl⟩ := hx
  choose b hb using hy
  rw [← sum_tiles fun k => max (a : EReal) (y k)]
  refine Finset.sum_congr rfl fun m _ => ?_
  simp only [hb, ← coe_min, ← coe_max, ← coe_sum, ← EReal.coe_mul, ← EReal.coe_add, ← EReal.coe_sub]
  exact congrArg _ (tile_max_real a fun j => b (tileRow m j)).symm

/-! ## The two running sums, and the similarity -/

/-- The numerator after `n` tiles. -/
def tileNum (x : EReal) (y : Fin 2048 → EReal) (n : ℕ) : EReal :=
  ∑ m ∈ range n, ∑ j : Fin 128, min x (y (tileRow m j))

/-- The denominator after `n` tiles, `c` standing for the tile's row count. -/
def tileDen (c x : EReal) (y : Fin 2048 → EReal) (n : ℕ) : EReal :=
  ∑ m ∈ range n, ((c * x + ∑ j : Fin 128, y (tileRow m j)) - ∑ j : Fin 128, min x (y (tileRow m j)))

theorem tileNum_succ (x : EReal) (y : Fin 2048 → EReal) (n : ℕ) :
    tileNum x y (n + 1) = tileNum x y n + ∑ j : Fin 128, min x (y (tileRow n j)) :=
  Finset.sum_range_succ _ n

theorem tileDen_succ (c x : EReal) (y : Fin 2048 → EReal) (n : ℕ) :
    tileDen c x y (n + 1)
      = tileDen c x y n + ((c * x + ∑ j : Fin 128, y (tileRow n j)) - ∑ j : Fin 128, min x (y (tileRow n j))) :=
  Finset.sum_range_succ _ n

theorem tileNum_zero (x : EReal) (y : Fin 2048 → EReal) : tileNum x y 0 = 0 := Finset.sum_range_zero _

theorem tileDen_zero (c x : EReal) (y : Fin 2048 → EReal) : tileDen c x y 0 = 0 := Finset.sum_range_zero _

theorem tileNum_one (x : EReal) (y : Fin 2048 → EReal) :
    tileNum x y 1 = 0 + ∑ j : Fin 128, min x (y (tileRow 0 j)) := by
  rw [tileNum, Finset.sum_range_one, zero_add]

theorem tileDen_one (c x : EReal) (y : Fin 2048 → EReal) :
    tileDen c x y 1
      = 0 + ((c * x + ∑ j : Fin 128, y (tileRow 0 j)) - ∑ j : Fin 128, min x (y (tileRow 0 j))) := by
  rw [tileDen, Finset.sum_range_one, zero_add]

/-- The similarity of one entry against one column: `∑ min / (∑ max + ε)`, each sum from `0`. -/
def similarity (eps x : EReal) (y : Fin 2048 → EReal) : EReal :=
  Ideal.div (0 + ∑ k : Fin 2048, min x (y k)) ((0 + ∑ k : Fin 2048, max x (y k)) + eps)

/-- The tiled evaluation after all sixteen tiles is the similarity, on finite entries. -/
theorem tiled_eq_similarity (c eps : EReal) (hc : c = ((128 : ℝ) : EReal)) (x : EReal) (y : Fin 2048 → EReal)
    (hx : ∃ a : ℝ, x = a) (hy : ∀ k, ∃ b : ℝ, y k = b) :
    Ideal.div (tileNum x y 16) (tileDen c x y 16 + eps) = similarity eps x y := by
  unfold similarity tileNum tileDen
  rw [sum_tiles fun k => min x (y k), den_tiles c hc x y hx hy, zero_add, zero_add]

end Ruzicka

end
-- ==== Proof.FiniteInputs.lean ====
/-
  What the precondition says: every entry of both tables is a real number.

  The precondition is printed as `all (|x| < +∞) ∧ all (|y| < +∞)`.  On the extended reals `|x| = max x (−x)`, which is
  below `⊤` exactly when `x` is neither `⊤` nor `⊥`, that is, when `x` is a real.
-/
import proofs.«103031_j25718264169371_2_alg».proof.Defs
import proofs.«103031_j25718264169371_2_alg».proof.Proof.TileSums
import Idealize.ShloMosaic.Lib.ReduceAll
import Idealize.ShloMosaic.Lib.ValueIdx

noncomputable section

namespace Cert.FiniteInputs

open Idealize.ShloMosaic Cert.Pre_finite_inputs

instance : Subsingleton S_.Idx := ⟨fun a b => funext fun d => d.elim0⟩

/-- An extended real whose absolute value compares below `+∞` is a real. -/
theorem real_of_abs_lt (x : EReal)
    (h : Ideal.cmp .olt (max x (-x)) (Ideal.ofBits .f32 0x7F800000#32) = 1#1) : ∃ a : ℝ, x = a := by
  rw [Ruzicka.ofBits_inf] at h
  simp only [Ideal.cmp] at h
  have hlt : max x (-x) < ⊤ := by
    by_contra hn
    rw [decide_eq_false hn] at h
    exact absurd h (by decide)
  induction x using EReal.rec with
  | bot => exact absurd hlt (by simp)
  | top => exact absurd hlt (by simp)
  | coe r => exact ⟨r, rfl⟩

/-- Under the precondition every entry of either table is a real. -/
theorem real_of_pre [Cert.Pre_finite_inputs.Facts] (x0 x1 : FVec Ideal S2048x64 .f32)
    (h : Cert.Pre_finite_inputs.fn (F := Ideal) x0 x1 = fun _ => 1#1) :
    (∀ i, ∃ a : ℝ, x0 i = a) ∧ (∀ i, ∃ b : ℝ, x1 i = b) := by
  have h0 := congrFun h ValueIdx.ix0
  dsimp only [fn] at h0
  obtain ⟨ha, hb⟩ := IntOp.andi_eq_one.mp h0
  exact ⟨fun i => real_of_abs_lt _ (Host.reduce_andi_all _ _ _ _ _ ha i),
    fun i => real_of_abs_lt _ (Host.reduce_andi_all _ _ _ _ _ hb i)⟩

end Cert.FiniteInputs

end
-- ==== Proof.Cases.lean ====
/-
  What each control case of the kernel body leaves behind, as values.

  The body has three cases, by the tile index `m` of the grid point: the first tile (`m = 0`: both accumulators are
  reset to zero before the tile is added), a middle tile, and the last tile (`m = 15`: after the tile is added the
  quotient is stored).  In every case the numerator accumulator ends at `old + ∑ⱼ min` and the denominator accumulator
  at `old + ((128·x + ∑ⱼ y) − ∑ⱼ min)` of the point's two input blocks, where `old` is zero in the first case and the
  accumulator's previous contents otherwise; the last case stores `numerator / (denominator + ε)` of the updated
  accumulators.  Each statement reads the one store that covers the buffer; the loads it depends on read whole
  buffers.  Stated for any float instance.
-/
import proofs.«103031_j25718264169371_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-! ## A middle tile -/

/-- The numerator accumulator after a middle tile. -/
theorem num_mid (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : ¬cond0_0 i) (hc1 : ¬cond0_1 i) (x0 : Vec F S256x64 .f32) (x1 : Vec F S128x64 .f32) (xs0 xs1 : Vec F S256x64 .f32) :
    sout0_B_0 c i a2 h2 a3 h3 a4 h4 a5 h5 a6 h6 hc0 hc1 x0 x1 xs0 xs1 = k0_pay4 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  rw [View.canon_unit_zero hz]
  simp only [View.readAt_eq_ld, h2.read_unread, h3.read_unread, h5.read_unread, h6.read_unread,
    View.ld_unit_zero (S := S256x64) hz, View.ld_unit_zero (S := S128x64) hz]

/-- The denominator accumulator after a middle tile. -/
theorem den_mid (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : ¬cond0_0 i) (hc1 : ¬cond0_1 i) (x0 : Vec F S256x64 .f32) (x1 : Vec F S128x64 .f32) (xs0 xs1 : Vec F S256x64 .f32) :
    sout0_B_1 c i a2 h2 a3 h3 a4 h4 a5 h5 a6 h6 hc0 hc1 x0 x1 xs0 xs1 = k0_pay5 x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  rw [View.canon_unit_zero hz]
  simp only [View.readAt_eq_ld, h2.read_unread, h3.read_unread, h5.read_unread, h6.read_unread,
    View.ld_unit_zero (S := S256x64) hz, View.ld_unit_zero (S := S128x64) hz]

/-! ## The first tile: the accumulators are reset, then the tile is added -/

/-- The numerator accumulator after the first tile: the tile added to the zero block. -/
theorem num_first (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : cond0_0 i) (hc1 : ¬cond0_1 i) (x0 : Vec F S256x64 .f32) (x1 : Vec F S128x64 .f32) :
    sout0_A_0 c i a2 h2 a3 h3 a4 h4 a5 h5 a6 h6 hc0 hc1 x0 x1 = k0_pay4 x0 x1 k0_pay1 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S256x64) hz, View.readCov_unit_zero (S := S256x64) _ hz]
  simp only [View.readAt_eq_ld, h2.read_unread, h3.read_unread, h5.read_unread, h6.read_unread,
    View.ld_unit_zero (S := S256x64) hz, View.ld_unit_zero (S := S128x64) hz]

/-- The denominator accumulator after the first tile. -/
theorem den_first (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : cond0_0 i) (hc1 : ¬cond0_1 i) (x0 : Vec F S256x64 .f32) (x1 : Vec F S128x64 .f32) :
    sout0_A_1 c i a2 h2 a3 h3 a4 h4 a5 h5 a6 h6 hc0 hc1 x0 x1 = k0_pay5 x0 x1 k0_pay2 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S256x64) hz, View.readCov_unit_zero (S := S256x64) _ hz]
  simp only [View.readAt_eq_ld, h2.read_unread, h3.read_unread, h5.read_unread, h6.read_unread,
    View.ld_unit_zero (S := S256x64) hz, View.ld_unit_zero (S := S128x64) hz]

/-! ## The last tile: the tile is added, then the quotient is stored -/

/-- The numerator accumulator after the last tile. -/
theorem num_last (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : ¬cond0_0 i) (hc1 : cond0_1 i) (x0 : Vec F S256x64 .f32) (x1 : Vec F S128x64 .f32) (xs0 xs1 : Vec F S256x64 .f32) :
    sout0_C_0 c i a2 h2 a3 h3 a4 h4 a5 h5 a6 h6 hc0 hc1 x0 x1 xs0 xs1 = k0_pay4 x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h5.read_unread, h6.read_unread,
    View.ld_unit_zero (S := S256x64) hz, View.ld_unit_zero (S := S128x64) hz]

/-- The denominator accumulator after the last tile. -/
theorem den_last (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : ¬cond0_0 i) (hc1 : cond0_1 i) (x0 : Vec F S256x64 .f32) (x1 : Vec F S128x64 .f32) (xs0 xs1 : Vec F S256x64 .f32) :
    sout0_C_1 c i a2 h2 a3 h3 a4 h4 a5 h5 a6 h6 hc0 hc1 x0 x1 xs0 xs1 = k0_pay5 x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h5.read_unread, h6.read_unread,
    View.ld_unit_zero (S := S256x64) hz, View.ld_unit_zero (S := S128x64) hz]

/-- The output block after the last tile: the quotient of the two updated accumulators. -/
theorem out_last (c : Dev nD) (i : grid0.Coords) (a2 : Memref sig .tc .vmem S256x64 .f32) (h2 : a2.IsWhole)
    (a3 : Memref sig .tc .vmem S128x64 .f32) (h3 : a3.IsWhole) (a4 : Memref sig .tc .vmem S256x64 .f32) (h4 : a4.IsWhole)
    (a5 : Memref sig .tc .vmem S256x64 .f32) (h5 : a5.IsWhole) (a6 : Memref sig .tc .vmem S256x64 .f32) (h6 : a6.IsWhole)
    (hc0 : ¬cond0_0 i) (hc1 : cond0_1 i) (x0 : Vec F S256x64 .f32) (x1 : Vec F S128x64 .f32) (xs0 xs1 : Vec F S256x64 .f32) :
    out0_C_2 c i a2 h2 a3 h3 a4 h4 a5 h5 a6 h6 hc0 hc1 x0 x1 xs0 xs1 = k0_pay6 (k0_pay4 x0 x1 xs0) (k0_pay5 x0 x1 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz]
  rw [View.readCov_unit_zero (S := S256x64) a5.view hz, View.readCov_unit_zero (S := S256x64) a6.view hz]
  simp only [View.readAt_eq_ld, h2.read_unread, h3.read_unread, h5.read_unread, h6.read_unread,
    View.ld_unit_zero (S := S256x64) hz, View.ld_unit_zero (S := S128x64) hz]

end Cert.KernelIdeal.Cases

end
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.Payloads.lean ====
/-
  The body's arithmetic at one entry, on the extended reals.

  At entry `(r, d)` of the point's block of the first table `x` (256 rows) against the point's tile `y` of the second
  (128 rows):
    * the tile's minimum sum is `∑ⱼ min (x r d) (y j d)`  — the two blocks are broadcast to `[256, 128, 64]`, the
      minimum is taken entry by entry and the tile axis is summed;
    * the numerator accumulator becomes `old + ∑ⱼ min (x r d) (y j d)`;
    * the denominator accumulator becomes `old + ((128 · x r d + ∑ⱼ y j d) − ∑ⱼ min (x r d) (y j d))`;
    * the stored quotient is `num / (den + ε)`;
    * the reset block is zero.
-/
import proofs.«103031_j25718264169371_2_alg».proof.Proof.Gen.KernelIdeal.Skeleton
import proofs.«103031_j25718264169371_2_alg».proof.Proof.LibMiddleUnitAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-- The reset block of the numerator accumulator is zero. -/
theorem reset_num (y : S256x64.Idx) : k0_pay1 (F := Ideal) y = (0 : EReal) :=
  (congrFun (shapeCast_self (broadcast S256x64 (Scalar.ofBits (F := Ideal) .f32 0x00000000#32))
    shapeCasts_S256x64_S256x64) y).trans Ideal.ofBits_zero_f32

/-- The reset block of the denominator accumulator is zero. -/
theorem reset_den (y : S256x64.Idx) : k0_pay2 (F := Ideal) y = (0 : EReal) :=
  (congrFun (shapeCast_self (broadcast S256x64 (Scalar.ofBits (F := Ideal) .f32 0x00000000#32))
    shapeCasts_S256x64_S256x64) y).trans Ideal.ofBits_zero_f32

/-- The tile's minimum sum at `(r, d)`. -/
theorem tile_min_sum (v3 : Vec Ideal S256x64 .f32) (v4 : Vec Ideal S128x64 .f32) (r : Fin 256) (d : Fin 64) :
    k0_pay3 (F := Ideal) v3 v4 (ix2 r d) = ∑ j : Fin 128, min (v3 (ix2 r d) : EReal) (v4 (ix2 j d)) := by
  unfold k0_pay3
  refine (Ideal.multiReduction_add_single _ (0x00000000#32 : BitVec 32) reduces_S256x128x64_S256x64 (.inl rfl) rfl
    (ix2 r d)).trans ?_
  refine Finset.sum_congr rfl fun j _ => ?_
  refine congrArg₂ min ?_ ?_
  · refine (broadcastTo_apply _ broadcasts_S256x1x64_S256x128x64 _ (ix3 r (0 : Fin 1) d) fun a => ?_).trans ?_
    · match a with
      | ⟨0, _⟩ => show r.val = if (256 : Nat) = 1 then 0 else r.val; rw [if_neg (by decide)]
      | ⟨1, _⟩ => show (0 : Nat) = if (1 : Nat) = 1 then 0 else j.val; rw [if_pos rfl]
      | ⟨2, _⟩ => show d.val = if (64 : Nat) = 1 then 0 else d.val; rw [if_neg (by decide)]
    · exact shapeCast_ab_a1b_apply v3 shapeCasts_S256x64_S256x1x64 r 0 d
  · refine (broadcastTo_apply _ broadcasts_S1x128x64_S256x128x64 _ (ix3 (0 : Fin 1) j d) fun a => ?_).trans ?_
    · match a with
      | ⟨0, _⟩ => show (0 : Nat) = if (1 : Nat) = 1 then 0 else r.val; rw [if_pos rfl]
      | ⟨1, _⟩ => show j.val = if (128 : Nat) = 1 then 0 else j.val; rw [if_neg (by decide)]
      | ⟨2, _⟩ => show d.val = if (64 : Nat) = 1 then 0 else d.val; rw [if_neg (by decide)]
    · exact shapeCast_ab_1ab_apply v4 shapeCasts_S128x64_S1x128x64 0 j d

/-- The numerator accumulator's new value at `(r, d)`. -/
theorem num_step (v3 : Vec Ideal S256x64 .f32) (v4 : Vec Ideal S128x64 .f32) (v11 : Vec Ideal S256x64 .f32)
    (r : Fin 256) (d : Fin 64) :
    k0_pay4 (F := Ideal) v3 v4 v11 (ix2 r d)
      = (v11 (ix2 r d) : EReal) + ∑ j : Fin 128, min (v3 (ix2 r d) : EReal) (v4 (ix2 j d)) := by
  unfold k0_pay4
  refine (congrFun (shapeCast_self _ _) (ix2 r d)).trans ?_
  exact congrArg ((v11 (ix2 r d) : EReal) + ·) (tile_min_sum v3 v4 r d)

/-- The denominator accumulator's new value at `(r, d)`. -/
theorem den_step (v3 : Vec Ideal S256x64 .f32) (v4 : Vec Ideal S128x64 .f32) (v17 : Vec Ideal S256x64 .f32)
    (r : Fin 256) (d : Fin 64) :
    k0_pay5 (F := Ideal) v3 v4 v17 (ix2 r d)
      = (v17 (ix2 r d) : EReal)
        + ((Ideal.ofBits .f32 0x43000000#32 * (v3 (ix2 r d) : EReal) + ∑ j : Fin 128, (v4 (ix2 j d) : EReal))
            - ∑ j : Fin 128, min (v3 (ix2 r d) : EReal) (v4 (ix2 j d))) := by
  unfold k0_pay5
  refine (congrFun (shapeCast_self _ _) (ix2 r d)).trans ?_
  refine congrArg ((v17 (ix2 r d) : EReal) + ·) ?_
  refine congrArg₂ (fun (p q : EReal) => p - q) ?_ (tile_min_sum v3 v4 r d)
  refine congrArg (Ideal.ofBits .f32 0x43000000#32 * (v3 (ix2 r d) : EReal) + ·) ?_
  refine (broadcastTo_1b_ab_apply _ broadcasts_S1x64_S256x64 r d).trans ?_
  refine (shapeCast_a_1a_apply _ shapeCasts_S64_S1x64 0 d).trans ?_
  refine (Ideal.multiReduction_add_single _ (0x00000000#32 : BitVec 32) reduces_S128x64_S64 (.inl rfl) rfl
    (ix1 d)).trans ?_
  exact Finset.sum_congr rfl fun j _ => congrArg v4 (funext fun a => Fin.ext (by
    match a with | ⟨0, _⟩ => rfl | ⟨1, _⟩ => rfl))

/-- The stored quotient at `(r, d)`. -/
theorem quotient (v31 v32 : Vec Ideal S256x64 .f32) (r : Fin 256) (d : Fin 64) :
    k0_pay6 (F := Ideal) v31 v32 (ix2 r d)
      = Ideal.div (v31 (ix2 r d)) ((v32 (ix2 r d) : EReal) + Ideal.ofBits .f32 0x322BCC77#32) := rfl

end Cert.KernelIdeal.Payloads

end
-- ==== Proof.Blocks.lean ====
/-
  What the windows read at a grid point.

  The grid is 8 row blocks by 16 tiles, the tile axis innermost: point `t` is row block `t / 16`, tile `t % 16`.
  The first table's window at `t` is its row block `t / 16` (256 rows), the second table's window its tile `t % 16`
  (128 rows), and the output's window is row block `t / 16` again.  An entry of a block is the entry of the table at
  block index × block height + the row inside the block.
-/
import proofs.«103031_j25718264169371_2_alg».proof.Proof.Gen.KernelIdeal.Frame
import proofs.«103031_j25718264169371_2_alg».proof.Proof.TileSums
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Ruzicka

variable {F : FTy → Type} [FloatOps F]
variable (m : (ℓ : Loc nD τ sig) → Buf (Elt F) ℓ)

/-- The printed index maps, decided over the grid: row block `t / 16` for the first table and the output, tile `t % 16`
    for the second table, column block 0 for all. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The first table's block at point `t`, entry `(r, d)`: the table at row `256 (t / 16) + r`. -/
theorem x_block (c : Dev nD) (t : Fin cfg0.N) (r : Fin 256) (d : Fin 64) :
    (iblk m c 0 t : Vec F S256x64 .f32) (ix2 r d)
      = m ((c : Thread nD τ).loc main_arg0) (ix2 (blockRow (t.val / 16) r) d) := by
  have hN : t.val < 128 := lt_of_lt_of_eq t.isLt (show cfg0.N = 128 from N_0)
  obtain ⟨e0, e1, -, -, -, -⟩ := index_facts t
  have hr := r.isLt
  unfold iblk
  rw [View.read_apply]
  show V m c main_arg0 _ = _
  refine congrArg (m ((c : Thread nD τ).loc main_arg0)) (funext fun a => Fin.ext ?_)
  match a with
  | ⟨0, _⟩ =>
    show win0_0.index t (0 : Fin 2) * 256 + 1 * r.val = (256 * (t.val / 16) + r.val) % 2048
    rw [e0]; omega
  | ⟨1, _⟩ =>
    show win0_0.index t (1 : Fin 2) * 64 + 1 * d.val = d.val
    rw [e1]; omega

/-- The second table's block at point `t`, entry `(j, d)`: the table at row `128 (t % 16) + j`. -/
theorem y_block (c : Dev nD) (t : Fin cfg0.N) (j : Fin 128) (d : Fin 64) :
    (iblk m c 1 t : Vec F S128x64 .f32) (ix2 j d)
      = m ((c : Thread nD τ).loc main_arg1) (ix2 (tileRow (t.val % 16) j) d) := by
  have hN : t.val < 128 := lt_of_lt_of_eq t.isLt (show cfg0.N = 128 from N_0)
  obtain ⟨-, -, e2, e3, -, -⟩ := index_facts t
  have hj := j.isLt
  unfold iblk
  rw [View.read_apply]
  show V m c main_arg1 _ = _
  refine congrArg (m ((c : Thread nD τ).loc main_arg1)) (funext fun a => Fin.ext ?_)
  match a with
  | ⟨0, _⟩ =>
    show win0_1.index t (0 : Fin 2) * 128 + 1 * j.val = (128 * (t.val % 16) + j.val) % 2048
    rw [e2]; omega
  | ⟨1, _⟩ =>
    show win0_1.index t (1 : Fin 2) * 64 + 1 * d.val = d.val
    rw [e3]; omega

end Cert.KernelIdeal.Blocks

end
-- ==== Proof.Accumulators.lean ====
/-
  The two accumulators, point by point.

  At grid point `t` (row block `i = t / 16`, tile `t % 16`) the numerator accumulator holds, at entry `(r, d)`, the sum over
  the tiles `0 … t % 16` of `∑ⱼ min (x R d) (y (128 m' + j) d)`, where `R = 256 i + r` — the running sum `tileNum` after
  `t % 16 + 1` tiles — and the denominator accumulator the running sum `tileDen` likewise.  By induction on the point:
  the first tile of a row block starts from the zero block (the running sum after no tile), every other tile from what
  the point before left, and one tile's contribution is the payload read at the entry.  At the last tile of a row
  block the output block is the quotient of the two sums after all sixteen tiles.
-/
import proofs.«103031_j25718264169371_2_alg».proof.Proof.Cases
import proofs.«103031_j25718264169371_2_alg».proof.Proof.Payloads
import proofs.«103031_j25718264169371_2_alg».proof.Proof.Blocks

noncomputable section

open Idealize.ShloMosaic Idealize.ShloMosaic.TcCoe Idealize.SL.Sem

namespace Cert.KernelIdeal.Accumulators

open Cert.KernelIdeal Cert.KernelIdeal.Gen Idealize.ShloMosaic.ValueIdx Ruzicka

variable (m : (ℓ : Loc nD τ sig) → Buf (Elt Ideal) ℓ)

/-- Entry `(R, d)` of the first table. -/
abbrev X (c : Dev nD) (R : Fin 2048) (d : Fin 64) : EReal := m ((c : Thread nD τ).loc main_arg0) (ix2 R d)

/-- Column `d` of the second table. -/
abbrev col (c : Dev nD) (d : Fin 64) : Fin 2048 → EReal := fun k => m ((c : Thread nD τ).loc main_arg1) (ix2 k d)

/-- The tile's row count as the kernel spells it, and the kernel's `ε`. -/
abbrev c128 : EReal := Ideal.ofBits .f32 0x43000000#32
abbrev eps : EReal := Ideal.ofBits .f32 0x322BCC77#32

/-- The numerator accumulator of row block `i` after `n` tiles. -/
def accNum (c : Dev nD) (i n : ℕ) : Vec Ideal S256x64 .f32 :=
  fun y => tileNum (X m c (blockRow i (y 0)) (y 1)) (col m c (y 1)) n

/-- The denominator accumulator of row block `i` after `n` tiles. -/
def accDen (c : Dev nD) (i n : ℕ) : Vec Ideal S256x64 .f32 :=
  fun y => tileDen c128 (X m c (blockRow i (y 0)) (y 1)) (col m c (y 1)) n

/-- The output block of row block `i`: the quotient after all sixteen tiles. -/
def quot (c : Dev nD) (i : ℕ) : Vec Ideal S256x64 .f32 :=
  fun y => Ideal.div (accNum m c i 16 y) (accDen m c i 16 y + eps)

/-- One tile added to the numerator accumulator. -/
theorem num_add (c : Dev nD) (t : Fin cfg0.N) (old : Vec Ideal S256x64 .f32) (i n : ℕ)
    (hi : t.val / 16 = i) (hn : t.val % 16 = n) (hold : old = accNum m c i n) :
    k0_pay4 (F := Ideal) (iblk m c 0 t) (iblk m c 1 t) old = accNum m c i (n + 1) := by
  subst hi hn hold
  funext y
  obtain ⟨r, d, rfl⟩ : ∃ (r : Fin 256) (d : Fin 64), y = ix2 r d := ⟨y 0, y 1, eq_ix2 y⟩
  refine (Payloads.num_step _ _ _ r d).trans ?_
  refine Eq.trans ?_ (tileNum_succ _ _ _).symm
  refine congrArg (fun q : EReal => accNum m c (t.val / 16) (t.val % 16) (ix2 r d) + q)
    (Finset.sum_congr rfl fun j _ => ?_)
  exact congrArg₂ min (Blocks.x_block m c t r d) (Blocks.y_block m c t j d)

/-- One tile added to the denominator accumulator. -/
theorem den_add (c : Dev nD) (t : Fin cfg0.N) (old : Vec Ideal S256x64 .f32) (i n : ℕ)
    (hi : t.val / 16 = i) (hn : t.val % 16 = n) (hold : old = accDen m c i n) :
    k0_pay5 (F := Ideal) (iblk m c 0 t) (iblk m c 1 t) old = accDen m c i (n + 1) := by
  subst hi hn hold
  funext y
  obtain ⟨r, d, rfl⟩ : ∃ (r : Fin 256) (d : Fin 64), y = ix2 r d := ⟨y 0, y 1, eq_ix2 y⟩
  refine (Payloads.den_step _ _ _ r d).trans ?_
  refine Eq.trans ?_ (tileDen_succ _ _ _ _).symm
  refine congrArg (fun q : EReal => accDen m c (t.val / 16) (t.val % 16) (ix2 r d) + q) ?_
  refine congrArg₂ (fun (p q : EReal) => p - q) ?_ (Finset.sum_congr rfl fun j _ => ?_)
  · refine congrArg₂ (fun (p q : EReal) => p + q) (congrArg (fun q : EReal => c128 * q) (Blocks.x_block m c t r d))
      (Finset.sum_congr rfl fun j _ => Blocks.y_block m c t j d)
  · exact congrArg₂ min (Blocks.x_block m c t r d) (Blocks.y_block m c t j d)

/-- The zero block is the numerator sum after no tile; -/
theorem reset_num_eq (c : Dev nD) (i : ℕ) : (k0_pay1 (F := Ideal) : Vec Ideal S256x64 .f32) = accNum m c i 0 :=
  funext fun y => (Payloads.reset_num y).trans (tileNum_zero _ _).symm

/-- and the denominator sum after no tile. -/
theorem reset_den_eq (c : Dev nD) (i : ℕ) : (k0_pay2 (F := Ideal) : Vec Ideal S256x64 .f32) = accDen m c i 0 :=
  funext fun y => (Payloads.reset_den y).trans (tileDen_zero _ _ _).symm

/-- The accumulators after point `t`, given what the point before left when `t` is not a row block's first tile. -/
theorem acc_point (c : Dev nD) (t : Fin cfg0.N)
    (ih : ¬t.val % 16 = 0 →
      (outsAt0 m c (t.val - 1) (Nat.lt_of_le_of_lt (Nat.sub_le _ _) t.isLt)).2.1 = accNum m c (t.val / 16) (t.val % 16)
      ∧ (outsAt0 m c (t.val - 1) (Nat.lt_of_le_of_lt (Nat.sub_le _ _) t.isLt)).2.2 = accDen m c (t.val / 16) (t.val % 16)) :
    (outsAt0 m c t.val t.isLt).2.1 = accNum m c (t.val / 16) (t.val % 16 + 1)
    ∧ (outsAt0 m c t.val t.isLt).2.2 = accDen m c (t.val / 16) (t.val % 16 + 1) := by
  by_cases h0 : t.val % 16 = 0
  · have h1 : ¬t.val % 16 = 15 := by omega
    rw [outsAt0_A m c t h0 h1]
    dsimp only
    refine ⟨(Cases.num_first (F := Ideal) c (grid0.coords t) (ms0_0 t) (hs0_0 t) (ms0_1 t) (hs0_1 t) (ms0_2 t) (hs0_2 t) scM0_0 (Memref.isWhole_whole _) scM0_1 (Memref.isWhole_whole _)
        ((hcond0_0 t).mpr h0) (fun h => h1 ((hcond0_1 t).mp h)) (iblk m c 0 t) (iblk m c 1 t)).trans ?_,
      (Cases.den_first (F := Ideal) c (grid0.coords t) (ms0_0 t) (hs0_0 t) (ms0_1 t) (hs0_1 t) (ms0_2 t) (hs0_2 t) scM0_0 (Memref.isWhole_whole _) scM0_1 (Memref.isWhole_whole _)
        ((hcond0_0 t).mpr h0) (fun h => h1 ((hcond0_1 t).mp h)) (iblk m c 0 t) (iblk m c 1 t)).trans ?_⟩
    · rw [h0]; exact num_add m c t _ (t.val / 16) 0 rfl h0 (reset_num_eq m c _)
    · rw [h0]; exact den_add m c t _ (t.val / 16) 0 rfl h0 (reset_den_eq m c _)
  · obtain ⟨ihn, ihd⟩ := ih h0
    by_cases h1 : t.val % 16 = 15
    · rw [outsAt0_C m c t h0 h1]
      dsimp only
      exact ⟨(Cases.num_last (F := Ideal) c (grid0.coords t) (ms0_0 t) (hs0_0 t) (ms0_1 t) (hs0_1 t) (ms0_2 t) (hs0_2 t) scM0_0 (Memref.isWhole_whole _) scM0_1 (Memref.isWhole_whole _)
          (fun h => h0 ((hcond0_0 t).mp h)) ((hcond0_1 t).mpr h1) (iblk m c 0 t) (iblk m c 1 t) _ _).trans
            (num_add m c t _ _ _ rfl rfl ihn),
        (Cases.den_last (F := Ideal) c (grid0.coords t) (ms0_0 t) (hs0_0 t) (ms0_1 t) (hs0_1 t) (ms0_2 t) (hs0_2 t) scM0_0 (Memref.isWhole_whole _) scM0_1 (Memref.isWhole_whole _)
          (fun h => h0 ((hcond0_0 t).mp h)) ((hcond0_1 t).mpr h1) (iblk m c 0 t) (iblk m c 1 t) _ _).trans
            (den_add m c t _ _ _ rfl rfl ihd)⟩
    · rw [outsAt0_B m c t h0 h1]
      dsimp only
      exact ⟨(Cases.num_mid (F := Ideal) c (grid0.coords t) (ms0_0 t) (hs0_0 t) (ms0_1 t) (hs0_1 t) (ms0_2 t) (hs0_2 t) scM0_0 (Memref.isWhole_whole _) scM0_1 (Memref.isWhole_whole _)
          (fun h => h0 ((hcond0_0 t).mp h)) (fun h => h1 ((hcond0_1 t).mp h)) (iblk m c 0 t) (iblk m c 1 t) _ _).trans
            (num_add m c t _ _ _ rfl rfl ihn),
        (Cases.den_mid (F := Ideal) c (grid0.coords t) (ms0_0 t) (hs0_0 t) (ms0_1 t) (hs0_1 t) (ms0_2 t) (hs0_2 t) scM0_0 (Memref.isWhole_whole _) scM0_1 (Memref.isWhole_whole _)
          (fun h => h0 ((hcond0_0 t).mp h)) (fun h => h1 ((hcond0_1 t).mp h)) (iblk m c 0 t) (iblk m c 1 t) _ _).trans
            (den_add m c t _ _ _ rfl rfl ihd)⟩

/-- The accumulators after every point: the running sums of the point's row block after its tiles so far. -/
theorem acc_eq (c : Dev nD) : ∀ (n : ℕ) (hn : n < cfg0.N),
    (outsAt0 m c n hn).2.1 = accNum m c (n / 16) (n % 16 + 1)
    ∧ (outsAt0 m c n hn).2.2 = accDen m c (n / 16) (n % 16 + 1)
  | 0, hn => acc_point m c ⟨0, hn⟩ (fun hne => absurd (Nat.zero_mod 16) hne)
  | n + 1, hn => acc_point m c ⟨n + 1, hn⟩ (fun hne => by
      have ih := acc_eq c n (Nat.lt_of_succ_lt hn)
      have hne' : ¬(n + 1) % 16 = 0 := hne
      have e1 : (n + 1) / 16 = n / 16 := by omega
      have e2 : (n + 1) % 16 = n % 16 + 1 := by omega
      show (outsAt0 m c n _).2.1 = accNum m c ((n + 1) / 16) ((n + 1) % 16)
        ∧ (outsAt0 m c n _).2.2 = accDen m c ((n + 1) / 16) ((n + 1) % 16)
      rw [e1, e2]
      exact ih)

/-- What the point before left, at a point that is not a row block's first tile. -/
theorem prev_eq (c : Dev nD) (t : Fin cfg0.N) (h0 : ¬t.val % 16 = 0) :
    (outsAt0 m c (t.val - 1) (Nat.lt_of_le_of_lt (Nat.sub_le _ _) t.isLt)).2.1 = accNum m c (t.val / 16) (t.val % 16)
    ∧ (outsAt0 m c (t.val - 1) (Nat.lt_of_le_of_lt (Nat.sub_le _ _) t.isLt)).2.2 = accDen m c (t.val / 16) (t.val % 16) := by
  have ih := acc_eq m c (t.val - 1) (Nat.lt_of_le_of_lt (Nat.sub_le _ _) t.isLt)
  have e1 : (t.val - 1) / 16 = t.val / 16 := by omega
  have e2 : (t.val - 1) % 16 + 1 = t.val % 16 := by omega
  rw [e1, e2] at ih
  exact ih

/-- The output block at a row block's last tile: the quotient of the two sums after all sixteen tiles. -/
theorem out_eq (c : Dev nD) (t : Fin cfg0.N) (h15 : t.val % 16 = 15) :
    (outsAt0 m c t.val t.isLt).1 = quot m c (t.val / 16) := by
  have h0 : ¬t.val % 16 = 0 := by omega
  obtain ⟨ihn, ihd⟩ := prev_eq m c t h0
  rw [outsAt0_C m c t h0 h15]
  dsimp only
  refine (Cases.out_last (F := Ideal) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h15) (iblk m c 0 t) (iblk m c 1 t) _ _).trans ?_
  refine (congrArg₂ (k0_pay6 (F := Ideal)) (num_add m c t _ _ _ rfl rfl ihn) (den_add m c t _ _ _ rfl rfl ihd)).trans ?_
  rw [h15]
  funext y
  obtain ⟨r, d, rfl⟩ : ∃ (r : Fin 256) (d : Fin 64), y = ix2 r d := ⟨y 0, y 1, eq_ix2 y⟩
  exact Payloads.quotient _ _ r d

end Cert.KernelIdeal.Accumulators

end
-- ==== Proof.KernelResult.lean ====
/-
  The kernel's result array.

  The output window is written back once per row block, after the block's last tile (points `16 i + 15`); what is
  written is the quotient block, which is row block `i` of ONE function of the two tables: at `(R, d)` the tiled
  numerator over the tiled denominator plus `ε`, for entry `x R d` against column `d` of the second table.  The eight
  written blocks cover the array, so after the region the array is that function; the host operation after the region
  inserts a unit axis, `[2048, 64] → [2048, 1, 64]`.
-/
import proofs.«103031_j25718264169371_2_alg».proof.Proof.Accumulators
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Accumulators Idealize.ShloMosaic.ValueIdx Ruzicka

variable (m : (ℓ : Loc nD τ sig) → Buf (Elt Ideal) ℓ) (ρ : Dev nD → PrngReg)

/-- The tiled evaluation as one function of the two tables, entry by entry. -/
def tiled (c : Dev nD) : S2048x64.Idx → EReal :=
  fun i => Ideal.div (tileNum (X m c (i 0) (i 1)) (col m c (i 1)) 16)
    (tileDen c128 (X m c (i 0) (i 1)) (col m c (i 1)) 16 + eps)

/-- What a row block's last point writes back is that row block of `tiled`. -/
theorem flushed_eq (c : Dev nD) (t : Fin cfg0.N) (hf : (cfg0.win 2).flush t = true) :
    (dats m 0 c).flushed 2 t = ((cfg0.win 2).blk t).view.read (Elt Ideal) (tiled m c) := by
  have h15 : t.val % 16 = 15 := (flush0_2 t).mp hf
  have hN : t.val < 128 := lt_of_lt_of_eq t.isLt (show cfg0.N = 128 from N_0)
  obtain ⟨-, -, -, -, e4, e5⟩ := Blocks.index_facts t
  show (cfg0.win 2).cut (grid0.coords t) ((dats m 0 c).after 2 t) = _
  rw [after0_2, out_eq m c t h15]
  funext y
  obtain ⟨r, d, rfl⟩ : ∃ (r : Fin 256) (d : Fin 64), y = ix2 r d := ⟨y 0, y 1, eq_ix2 y⟩
  have hr := r.isLt
  have hemb : ((cfg0.win 2).blk t).view.emb (ix2 r d) = ix2 (blockRow (t.val / 16) r) d := by
    funext a; apply Fin.ext
    match a with
    | ⟨0, _⟩ =>
      show win0_2.index t (0 : Fin 2) * 256 + 1 * r.val = (256 * (t.val / 16) + r.val) % 2048
      rw [e4]; omega
    | ⟨1, _⟩ =>
      show win0_2.index t (1 : Fin 2) * 64 + 1 * d.val = d.val
      rw [e5]; omega
  show quot m c (t.val / 16) (ix2 r d) = tiled m c (((cfg0.win 2).blk t).view.emb (ix2 r d))
  rw [hemb]
  rfl

/-- An index of the array is in point `t`'s block iff each coordinate is in the block's range on its axis. -/
theorem mem_blk (t : Fin cfg0.N) (i : S2048x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v0).slice (win0_2.rect t)).set ↔ _
  rw [View.set_slice_whole, Rect.mem_set_unit]
  exact Iff.rfl

/-- Row `R` is written back by the last point of its row block, `16 (R / 256) + 15`. -/
theorem cover (i : S2048x64.Idx) :
    ∃ t : Fin cfg0.N, (cfg0.win 2).flush t = true ∧ i ∈ ((cfg0.win 2).blk t).view.set := by
  have hi0 : (i 0).val < 2048 := (i 0).isLt
  have hi1 : (i 1).val < 64 := (i 1).isLt
  have hlt : 16 * ((i 0).val / 256) + 15 < cfg0.N := lt_of_lt_of_eq (by omega) (show cfg0.N = 128 from N_0).symm
  refine ⟨⟨16 * ((i 0).val / 256) + 15, hlt⟩, (flush0_2 _).mpr (by show (16 * ((i 0).val / 256) + 15) % 16 = 15; omega), ?_⟩
  rw [mem_blk]
  obtain ⟨-, -, -, -, e4, e5⟩ := Blocks.index_facts ⟨16 * ((i 0).val / 256) + 15, hlt⟩
  have e4' : win0_2.index ⟨16 * ((i 0).val / 256) + 15, hlt⟩ (0 : Fin 2) = (16 * ((i 0).val / 256) + 15) / 16 := e4
  intro a
  match a with
  | ⟨0, _⟩ =>
    show win0_2.index ⟨16 * ((i 0).val / 256) + 15, hlt⟩ (0 : Fin 2) * 256 ≤ (i 0).val
      ∧ (i 0).val < win0_2.index ⟨16 * ((i 0).val / 256) + 15, hlt⟩ (0 : Fin 2) * 256 + 256
    rw [e4']; omega
  | ⟨1, _⟩ =>
    show win0_2.index ⟨16 * ((i 0).val / 256) + 15, hlt⟩ (1 : Fin 2) * 64 ≤ (i 1).val
      ∧ (i 1).val < win0_2.index ⟨16 * ((i 0).val / 256) + 15, hlt⟩ (1 : Fin 2) * 64 + 64
    rw [e5]; omega

/-- After the region the output array is `tiled`. -/
theorem final (c : Dev nD) : (dats m 0 c).arrAt 2 cfg0.N = tiled m c :=
  (dats m 0 c).arrAt_eq_of_cover 2 (tiled m c) (flushed_eq m c) cover

/-- The program's result: the host operation after the region reads the output array with a unit axis inserted. -/
def result (c : Dev nD) : S2048x1x64.Idx → EReal :=
  broadcastInDim S2048x1x64 ![0, 2] bcast_S2048x64_S2048x1x64_0_2 (tiled m c)

theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  exact congrArg (broadcastInDim S2048x1x64 ![0, 2] bcast_S2048x64_S2048x1x64_0_2)
    ((Pipeline.withArrays_arr spec0 launch0.win.arr_inj c (V0 m c) (fun w => (dats m 0 c).arrAt w cfg0.N) 2).trans (final m c))

/-- The run, read: the result at `result`, the two tables unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- On finite tables the result at `(R, u, d)` is the similarity of entry `x R d` against column `d` of the second table:
    the tiled numerator is the full sum of minima, and — the entries being real — the tiled denominator the full sum of
    maxima. -/
theorem result_apply (c : Dev nD)
    (hx : ∀ i : S2048x64.Idx, ∃ a : ℝ, (m ((c : Thread nD τ).loc main_arg0) i : EReal) = (a : EReal))
    (hy : ∀ i : S2048x64.Idx, ∃ b : ℝ, (m ((c : Thread nD τ).loc main_arg1) i : EReal) = (b : EReal))
    (R : Fin 2048) (u : Fin 1) (d : Fin 64) :
    result m c (ix3 R u d) = similarity eps (X m c R d) (col m c d) := by
  refine (broadcastInDim_apply _ bcast_S2048x64_S2048x1x64_0_2 (tiled m c) (ix3 R u d) (ix2 R d) fun a => ?_).trans ?_
  · match a with
    | ⟨0, _⟩ => show R.val = if (2048 : Nat) = 1 then 0 else R.val; rw [if_neg (by decide)]
    | ⟨1, _⟩ => show d.val = if (64 : Nat) = 1 then 0 else d.val; rw [if_neg (by decide)]
  · exact tiled_eq_similarity c128 eps ofBits_128 (X m c R d) (col m c d) (hx _) (fun k => hy _)

end Cert.KernelIdeal.Result

end
-- ==== Proof.ReferenceValue.lean ====
/-
  The reference's result, entry by entry.

  The reference broadcasts both tables to `[2048, 1, 2048, 64]`, takes the minimum and the maximum entry by entry, sums
  each over the second table's row axis from zero, adds `ε` to the sum of maxima and divides.  At `(R, u, d)` that is
  the similarity of entry `x R d` against column `d` of the second table.
-/
import proofs.«103031_j25718264169371_2_alg».proof.Proof.Gen.ReferenceIdeal.Read
import proofs.«103031_j25718264169371_2_alg».proof.Proof.TileSums
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Ruzicka

/-- Where the broadcasts read the first table: entry `(R, d)`, for the minima and for the maxima. -/
theorem idx_x_min (R : Fin 2048) (u : Fin 1) (d : Fin 64) (k : Fin 2048) :
    idx_main_v0 (idx_main_v2 (idx_main_v5 (ix3 R u d) k)) = ix2 R d :=
  funext fun a => Fin.ext (by match a with | ⟨0, _⟩ => rfl | ⟨1, _⟩ => rfl)
theorem idx_x_max (R : Fin 2048) (u : Fin 1) (d : Fin 64) (k : Fin 2048) :
    idx_main_v0 (idx_main_v6 (idx_main_v9 (ix3 R u d) k)) = ix2 R d :=
  funext fun a => Fin.ext (by match a with | ⟨0, _⟩ => rfl | ⟨1, _⟩ => rfl)

/-- Where they read the second table: entry `(k, d)`, `k` the summed row. -/
theorem idx_y_min (R : Fin 2048) (u : Fin 1) (d : Fin 64) (k : Fin 2048) :
    idx_main_v1 (idx_main_v3 (idx_main_v5 (ix3 R u d) k)) = ix2 k d :=
  funext fun a => Fin.ext (by match a with | ⟨0, _⟩ => rfl | ⟨1, _⟩ => rfl)
theorem idx_y_max (R : Fin 2048) (u : Fin 1) (d : Fin 64) (k : Fin 2048) :
    idx_main_v1 (idx_main_v7 (idx_main_v9 (ix3 R u d) k)) = ix2 k d :=
  funext fun a => Fin.ext (by match a with | ⟨0, _⟩ => rfl | ⟨1, _⟩ => rfl)

/-- The reference's result at `(R, u, d)` is the similarity of `x R d` against column `d`. -/
theorem ref_apply (x0 x1 : (⟨S2048x64, .f32⟩ : BufTy).Contents (Elt Ideal)) (R : Fin 2048) (u : Fin 1) (d : Fin 64) :
    val_main_v12 (F := Ideal) x0 x1 (ix3 R u d)
      = similarity (Ideal.ofBits .f32 0x322BCC77#32) (x0 (ix2 R d)) (fun k => x1 (ix2 k d)) := by
  rw [val_main_v12_apply, val_main_v5_apply, val_main_v11_apply, val_main_v9_apply, val_main_v10_apply]
  simp only [val_main_v4_apply, val_main_v8_apply, val_main_v2_apply, val_main_v3_apply, val_main_v6_apply,
    val_main_v7_apply, val_main_v0_apply, val_main_v1_apply, val_main_cst_apply, val_main_cst_0_apply,
    val_main_cst_1_apply, idx_x_min, idx_x_max, idx_y_min, idx_y_max,
    Ideal.hostDivf_def, Ideal.addf_def, Ideal.minimumf_def, Ideal.maximumf_def, Ideal.ofBits_def,
    Ideal.ofBits_zero_f32]
  rfl

end Cert.ReferenceIdeal.RefValue

end
-- ==== Proof.lean ====
/-
  The Ruzicka similarity of two tables `x, y : f32[2048, 64]`: at `(R, 0, d)`,

      ∑ₖ min (x R d) (y k d)  /  (∑ₖ max (x R d) (y k d) + ε),      k over the 2048 rows of `y`.

  The reference computes exactly this (ReferenceValue).  The kernel walks a grid of 8 row blocks of `x` by 16 tiles of
  `y`, keeping two accumulators per row block: it adds `∑ⱼ min` over the tile to the first, and
  `(128·x + ∑ⱼ y) − ∑ⱼ min` over the tile to the second, and after the last tile stores the quotient of the first by the
  second plus `ε` (Cases, Payloads, Blocks, Accumulators, KernelResult).  Summing tile by tile is summing over all rows,
  so the numerators agree on all extended reals; since `min a b + max a b = a + b`, one tile's second contribution is
  `∑ⱼ max` over the tile, so the denominators agree wherever every entry is a real number (TileSums) — which is what the
  precondition says (FiniteInputs).  The same `ε` word is added on both sides and the same division applied.

  The three frames are the generated ones (the reference's is its generated run with the result dropped), and the
  idealization rewrote nothing.
-/
import proofs.«103031_j25718264169371_2_alg».proof.Defs
import proofs.«103031_j25718264169371_2_alg».proof.Proof.Gen.Kernel
import proofs.«103031_j25718264169371_2_alg».proof.Proof.Gen.Kernel.Skeleton
import proofs.«103031_j25718264169371_2_alg».proof.Proof.Gen.Kernel.Launch
import proofs.«103031_j25718264169371_2_alg».proof.Proof.Gen.Kernel.Points
import proofs.«103031_j25718264169371_2_alg».proof.Proof.Gen.Kernel.Frame
import proofs.«103031_j25718264169371_2_alg».proof.Proof.Gen.KernelIdeal
import proofs.«103031_j25718264169371_2_alg».proof.Proof.Gen.KernelIdeal.Skeleton
import proofs.«103031_j25718264169371_2_alg».proof.Proof.Gen.KernelIdeal.Launch
import proofs.«103031_j25718264169371_2_alg».proof.Proof.Gen.KernelIdeal.Points
import proofs.«103031_j25718264169371_2_alg».proof.Proof.Gen.KernelIdeal.Frame
import proofs.«103031_j25718264169371_2_alg».proof.Proof.Gen.ReferenceIdeal
import proofs.«103031_j25718264169371_2_alg».proof.Proof.Gen.ReferenceIdeal.Run
import proofs.«103031_j25718264169371_2_alg».proof.Proof.Gen.ReferenceIdeal.Read
import proofs.«103031_j25718264169371_2_alg».proof.Proof.Gen.Pre_finite_inputs
import proofs.«103031_j25718264169371_2_alg».proof.Proof.FiniteInputs
import proofs.«103031_j25718264169371_2_alg».proof.Proof.KernelResult
import proofs.«103031_j25718264169371_2_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx Ruzicka

/-- The similarity of every entry of `x` against its column of `y`, as an array `[2048, 1, 64]`. -/
def similarityArray (x y : Cert.KernelIdeal.S2048x64.Idx → EReal) : Cert.KernelIdeal.S2048x1x64.Idx → EReal :=
  fun i => similarity (Ideal.ofBits .f32 0x322BCC77#32) (x (ix2 (i 0) (i 2))) (fun k => y (ix2 k (i 2)))

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the similarity array of the (agreeing, finite) tables. -/
theorem algebraic : Cert.algebraic_KernelIdeal_ReferenceIdeal := by
  intro m ρ m' ρ' hpre hagree
  refine ⟨fun c => similarityArray (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Result.run m ρ)
    obtain ⟨hx, hy⟩ := Cert.FiniteInputs.real_of_pre _ _ (hpre c)
    funext i
    obtain ⟨R, u, d, rfl⟩ : ∃ (R : Fin 2048) (u : Fin 1) (d : Fin 64), i = ix3 R u d := ⟨i 0, i 1, i 2, eq_ix3 i⟩
    exact Cert.KernelIdeal.Result.result_apply m c hx hy R u d
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, (hagree c).1, (hagree c).2]
    funext i
    obtain ⟨R, u, d, rfl⟩ : ∃ (R : Fin 2048) (u : Fin 1) (d : Fin 64), i = ix3 R u d := ⟨i 0, i 1, i 2, eq_ix3 i⟩
    exact Cert.ReferenceIdeal.RefValue.ref_apply _ _ R u d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
